-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64x64 : Shape := ⟨2, ![64, 64]⟩
abbrev S64x2048 : Shape := ⟨2, ![64, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x64 : S_.BroadcastsInDim S2048x64 (![] : Fin 0 → Fin S2048x64.rank)
  reducesTo_S2048x64_S_d0_1 : S2048x64.ReducesTo [0, 1] S_
  bcast_S_S64x64 : S_.BroadcastsInDim S64x64 (![] : Fin 0 → Fin S64x64.rank)
  reducesTo_S64x64_S_d0_1 : S64x64.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg4 : FVec F S64x64 .f32) (main_arg5 : FVec F S64x64 .f32) (main_arg6 : FVec F S64x2048 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x2048 .f32 := Host.absf main_arg6
  let main_cst_10 : FVec F S_ .f32 := constant S_ .f32 0x7F800000#32
  let main_v30 : FVec F S64x2048 .f32 := broadcastInDim S64x2048 ![] bcast_S_S64x2048 main_cst_10
  let main_v31 : IVec S64x2048 1 := cmpf .olt main_v29 main_v30
  let main_c_11 : IVec S_ 1 := constantI S_ 1 1#1
  let main_v32 : IVec S_ 1 := (fun x v => Host.reduce IntOp.andi x v reducesTo_S64x2048_S_d0_1 h_S_) main_v31 main_c_11
  let main_v33 : IVec S_ 1 := andi main_v28 main_v32
  main_v33

def fn {F : FTy → Type} [FloatOps F] (main_arg0 : FVec F S4x2048x2048 .f32) (main_arg1 : FVec F S2048x2048 .f32) (main_arg2 : FVec F S2048 .f32) (main_arg3 : FVec F S2048x64 .f32) (main_arg4 : FVec F S64x64 .f32) (main_arg5 : FVec F S64x64 .f32) (main_arg6 : FVec F S64x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_arg5 main_arg6 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64x64 : Shape := ⟨2, ![64, 64]⟩
abbrev S64x2048 : Shape := ⟨2, ![64, 2048]⟩
abbrev S512x64 : Shape := ⟨2, ![512, 64]⟩
abbrev S512x2048 : Shape := ⟨2, ![512, 2048]⟩
abbrev S2048x512 : Shape := ⟨2, ![2048, 512]⟩
abbrev S8192x2048 : Shape := ⟨2, ![8192, 2048]⟩
abbrev S1x2048 : Shape := ⟨2, ![1, 2048]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x64, .f32⟩
  | .hbm, ⟨4, _⟩ => ⟨S64x64, .f32⟩
  | .hbm, ⟨5, _⟩ => ⟨S64x64, .f32⟩
  | .hbm, ⟨6, _⟩ => ⟨S64x2048, .f32⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S4x2048x2048, .f32⟩
  | .local _ .vmem, ⟨0, _⟩ => ⟨S512x64, .f32⟩
  | .local _ .vmem, ⟨1, _⟩ => ⟨S512x64, .f32⟩
  | .local _ .vmem, ⟨2, _⟩ => ⟨S64x64, .f32⟩
  | .local _ .vmem, ⟨3, _⟩ => ⟨S64x64, .f32⟩
  | .local _ .vmem, ⟨4, _⟩ => ⟨S64x2048, .f32⟩
  | .local _ .vmem, ⟨5, _⟩ => ⟨S512x2048, .f32⟩
  | .local _ .vmem, ⟨6, _⟩ => ⟨S512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .f32⟩
  | .local _ .vmem, ⟨10, _⟩ => ⟨S512x2048, .f32⟩
  | .local _ .vmem, ⟨11, _⟩ => ⟨S2048x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x64_S512x64_0_0 : ∀ a, (![0, 0] : Fin 2 → Nat) a + S512x64.size a ≤ S512x64.size a
  h_S512x64 : 0 < S512x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x2048_S64x2048_0_0 : ∀ a, (![0, 0] : Fin 2 → Nat) a + S64x2048.size a ≤ S64x2048.size a
  h_S64x2048 : 0 < S64x2048.numel
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  shapeCasts_S4x2048x2048_S8192x2048 : S4x2048x2048.ShapeCasts S8192x2048
  shapeCasts_S2048_S1x2048 : S2048.ShapeCasts S1x2048
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x64_S64x64_S512x64_1_0_0_1_n_n_wf : DotDims.WF S512x64 S64x64 S512x64 [1] [0] [0] [1] [] []
  dot_S512x64_S64x2048_S512x2048_1_0_0_1_n_n_wf : DotDims.WF S512x64 S64x2048 S512x2048 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .f32 = 32 ∨ (Rect.block (s := S64x2048) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S2048x2048.size a
  hwx0_4 : ∀ i : grid0.Coords, EltTy.bits .f32 = 32 ∨ (Rect.block (s := S2048x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x2048.size a
  hwx0_5 : ∀ i : grid0.Coords, EltTy.bits .bf16 = 32 ∨ (Rect.block (s := S2048x2048) S2048x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg3) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S2048x64 : Shape := ⟨2, ![2048, 64]⟩
abbrev S64x64 : Shape := ⟨2, ![64, 64]⟩
abbrev S64x2048 : Shape := ⟨2, ![64, 2048]⟩
abbrev S1x1x2048 : Shape := ⟨3, ![1, 1, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x64, .f32⟩
  | .hbm, ⟨4, _⟩ => ⟨S64x64, .f32⟩
  | .hbm, ⟨5, _⟩ => ⟨S64x64, .f32⟩
  | .hbm, ⟨6, _⟩ => ⟨S64x2048, .f32⟩
  | .hbm, ⟨7, _⟩ => ⟨S4x2048x2048, .f32⟩
  | .hbm, ⟨8, _⟩ => ⟨S1x1x2048, .f32⟩
  | .hbm, ⟨9, _⟩ => ⟨S4x2048x2048, .f32⟩
  | .hbm, ⟨10, _⟩ => ⟨S4x2048x2048, .f32⟩
  | .hbm, ⟨11, _⟩ => ⟨S2048x64, .f32⟩
  | .hbm, ⟨12, _⟩ => ⟨S2048x64, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S4x2048x2048, .f32⟩
  | .hbm, ⟨18, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S2048x2048 : S_.BroadcastsInDim S2048x2048 (![] : Fin 0 → Fin S2048x2048.rank)
  dot_S4x2048x2048_S2048x2048_S4x2048x2048_2_1_01_0_n_n_wf : DotDims.WF S4x2048x2048 S2048x2048 S4x2048x2048 [2] [1] [0, 1] [0] [] []
  dot_S2048x64_S64x64_S2048x64_1_0_0_1_n_n_wf : DotDims.WF S2048x64 S64x64 S2048x64 [1] [0] [0] [1] [] []
  dot_S2048x64_S64x2048_S2048x2048_1_0_0_1_n_n_wf : DotDims.WF S2048x64 S64x2048 S2048x2048 [1] [0] [0] [1] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

class Facts : Prop extends Facts₀ where

variable [Facts]
-- ==== Proof.KernelRun.lean ====
/-
  The idealized kernel's run with its result buffer named.

  The program is two pipelined regions with host reshapes between and after them. Every weakly fair execution
  terminates, and in the final state each unscoped buffer holds the contents at the last segment boundary: the
  launch memory carried through region 0's write-backs, the two reshapes, region 1's write-backs and the final
  reshape. Here that is stated for the result buffer as well as for the seven arguments, so that the value of the
  result can be read off the boundary contents.
-/
import proofs.«175021_j76733885710753_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the seven argument arrays end as launched. -/
theorem run_named : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.ValueRun

end
-- ==== Proof.LibPlainMatmul.lean ====
/-
  General facts about plain matrix products at the ideal values, independent of any program.

  * `matmul_plain_zero_apply` — a vector-unit matrix product of an m×k by a k×n matrix (`DotDims.plain`: the left
    operand contracted on its columns, the right on its rows, no batch axis) accumulated into the zero splat, read at
    row `a` and column `b`, is `∑ c, A (a, c) · B (c, b)` over the k contracted positions, in the extended reals.
    The operands' float formats are arbitrary: at the ideal values a change of format is the identity.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.PlainMatmul

open Idealize.ShloMosaic Idealize.ShloMosaic.ValueIdx

/-- The plain product into a zero accumulator, at an index, is the sum of the products of the entries along the
    contracted coordinate. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply]
  have h := StackMember.dotGeneral_plain_apply (m := m) (n := n) prec A B a b
  simp only [Host.dotGeneral] at h
  rw [Ideal.dotGeneral_apply] at h
  exact h

end Cert.PlainMatmul

end
-- ==== Proof.LibExtendedReals.lean ====
/-
  General facts about sums and accumulating scatters on the extended reals, independent of any program.

  * `sum_mul_of_nonneg` — a nonnegative FINITE factor moves across a finite sum of extended reals. (Distributivity
    fails on the extended reals at infinite or negative factors: (1 + (-1)) · ⊤ = 0 but 1 · ⊤ + (-1) · ⊤ = ⊥. For a
    factor in [0, ∞) it holds whatever the summands are.)
  * `scatterAdd_mul`, `hostScatterAdd_mul` — the accumulating scatter `x.at[idx].add(upd)` at the ideal values is,
    at each element, the start value plus the sum of the updates landing there. If every update that lands on
    element `i` is `upd' j · c` for ONE nonnegative finite `c`, and the start value at `i` is zero, the two accumulated
    values at `i` differ by the factor `c`. The hypothesis is only asked of the updates that land on `i`
    (`d.resultIdx? j idx = some i`), which is where a per-target factor is known.
  * `rsqrt_of_one_le` — the reciprocal square root of an extended real at least 1 is nonnegative and not +∞ (of +∞
    it is 0): the shape of a degree normaliser `rsqrt (max deg 1)`.
  * `ofBits_one_f32` — the single-precision word 0x3F800000 denotes 1.
-/
import Idealize.ShloMosaic.PureOps.Ideal
import Idealize.ShloMosaic.PureOps.Ideal.Laws
import Idealize.ShloMosaic.PureOps.Contract

noncomputable section

open scoped BigOperators

namespace Cert.ExtendedReals

open Idealize.ShloMosaic

/-- A nonnegative finite factor moves across a finite sum of extended reals. -/
theorem sum_mul_of_nonneg {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- If every update that lands on element `i` is `upd' j · c` for one nonnegative finite `c`, and the sum starts from
    zero at `i`, then the two accumulated values at `i` differ by the factor `c`. -/
theorem scatterAdd_mul {s si u : Shape} {w : Nat} (d : ScatterDims s si u) (Z : s.Idx → EReal) (idx : IVec si w)
    (upd upd' : u.Idx → EReal) (i : s.Idx) (c : EReal) (hZ : Z i = 0) (h0 : 0 ≤ c) (ht : c ≠ ⊤)
    (hupd : ∀ j, d.resultIdx? j idx = some i → upd j = upd' j * c) :
    Ideal.hostScatterAdd d Z idx upd i = Ideal.hostScatterAdd d Z idx upd' i * c := by
  unfold Ideal.hostScatterAdd
  show Z i + _ = (Z i + _) * c
  rw [hZ, zero_add, zero_add, sum_mul_of_nonneg _ _ h0 ht]
  exact Finset.sum_congr rfl fun j hj => hupd j (Finset.mem_filter.mp hj).2

/-- The same for the host's accumulating scatter as a printed program spells it. Apply it by `exact` to a goal
    already in this form: restating a full-size goal through the ideal definition instead is expensive. -/
theorem hostScatterAdd_mul {s si u : Shape} {w : Nat} {φ : FTy} (d : ScatterDims s si u) (Z : FVec Ideal s φ) (idx : IVec si w)
    (upd upd' : FVec Ideal u φ) (i : s.Idx) (c : EReal) (hZ : Z i = 0) (h0 : 0 ≤ c) (ht : c ≠ ⊤)
    (hupd : ∀ j, d.resultIdx? j idx = some i → upd j = upd' j * c) :
    Host.scatterAdd d Z idx upd i = Host.scatterAdd d Z idx upd' i * c :=
  scatterAdd_mul d Z idx upd upd' i c hZ h0 ht hupd

/-- The single-precision word of 1.0 denotes 1. -/
theorem ofBits_one_f32 : Ideal.ofBits .f32 0x3F800000#32 = 1 := by
  simp [Ideal.ofBits, Ideal.ieee, -EReal.coe_mul]; norm_num

/-- The reciprocal square root of an extended real at least 1 is nonnegative and not +∞. -/
theorem rsqrt_of_one_le (y : EReal) (hy : 1 ≤ y) : 0 ≤ Ideal.rsqrt y ∧ Ideal.rsqrt y ≠ ⊤ := by
  induction y using EReal.rec with
  | bot => exact absurd (le_bot_iff.mp hy) (by exact_mod_cast EReal.coe_ne_bot (1 : ℝ))
  | top => rw [Ideal.rsqrt_top]; exact ⟨le_refl _, EReal.zero_ne_top⟩
  | coe r =>
    have hr : (1 : ℝ) ≤ r := by exact_mod_cast hy
    have h0 : ¬ r < 0 := by linarith
    have h1 : ¬ r = 0 := by intro h; rw [h] at hr; norm_num at hr
    rw [Ideal.rsqrt_coe, if_neg h0, if_neg h1]
    exact ⟨by exact_mod_cast inv_nonneg.mpr (Real.sqrt_nonneg r), EReal.coe_ne_top _⟩

end Cert.ExtendedReals

end
-- ==== Proof.Payloads.lean ====
/-
  What the two kernel bodies store, read at an index, at the ideal values.

  The first body takes a 512-row block of `U` and of `W` and the whole of `σ`, `R`, `Vt`; it forms
  `((U σ) R) Vt` by three products into zero accumulators, scales by the constant one, adds the weight block and
  stores the transpose. The changes of float format around the products are the identity on the extended reals.
  So the entry at (input p, local output q) is `W (q, p) + δ (q, p) · 1`.

  The second body takes a 512-row block of the activations, the whole adapted weight (inputs × outputs) and the
  one-row bias; it stores the product plus the bias row repeated down the block: at (row r, output q) it is
  `∑ₖ x (r, k) · Wᵉ (k, q) + bias (0, q)`.
-/
import proofs.«175021_j76733885710753_2_alg».proof.Proof.Gen.KernelIdeal.Skeleton
import proofs.«175021_j76733885710753_2_alg».proof.Proof.LibPlainMatmul
import proofs.«175021_j76733885710753_2_alg».proof.Proof.LibExtendedReals
import Idealize.ShloMosaic.Lib.Pipeline.Value
import Idealize.ShloMosaic.Lib.ValueIdx
import Idealize.ShloMosaic.Lib.ValueLayout

noncomputable section

namespace Cert.KernelIdeal.Payloads

open Cert.KernelIdeal Cert.KernelIdeal.Gen Idealize.ShloMosaic Idealize.ShloMosaic.ValueIdx

/-- The three dimension records the bodies use are plain row-by-column products. -/
theorem mm_512_64_64 {φ₁ φ₂ : FTy} (A : FVec Ideal S512x64 φ₁) (B : FVec Ideal S64x64 φ₂) (a : Fin 512) (b : Fin 64) :
    matmul dot_S512x64_S64x64_S512x64_1_0_0_1_n_n none A B (constant S512x64 .f32 0x00000000#32) (ix2 a b)
      = ∑ c : Fin 64, A (ix2 a c) * B (ix2 c b) :=
  Cert.PlainMatmul.matmul_plain_zero_apply none A B a b

theorem mm_512_64_2048 {φ₁ φ₂ : FTy} (A : FVec Ideal S512x64 φ₁) (B : FVec Ideal S64x2048 φ₂) (a : Fin 512) (b : Fin 2048) :
    matmul dot_S512x64_S64x2048_S512x2048_1_0_0_1_n_n none A B (constant S512x2048 .f32 0x00000000#32) (ix2 a b)
      = ∑ c : Fin 64, A (ix2 a c) * B (ix2 c b) :=
  Cert.PlainMatmul.matmul_plain_zero_apply none A B a b

theorem mm_512_2048_2048 {φ₁ φ₂ : FTy} (A : FVec Ideal S512x2048 φ₁) (B : FVec Ideal S2048x2048 φ₂) (a : Fin 512) (b : Fin 2048) :
    matmul dot_S512x2048_S2048x2048_S512x2048_1_0_0_1_n_n none A B (constant S512x2048 .f32 0x00000000#32) (ix2 a b)
      = ∑ c : Fin 2048, A (ix2 a c) * B (ix2 c b) :=
  Cert.PlainMatmul.matmul_plain_zero_apply none A B a b

/-- The first body's stored value at (input `p`, local output `q`): the weight block transposed plus the update, the
    update being three nested 64-term sums, times one. -/
theorem delta_payload_apply (x0 : Vec Ideal S512x64 .f32) (x1 x2 : Vec Ideal S64x64 .f32) (x3 : Vec Ideal S64x2048 .f32)
    (x4 : Vec Ideal S512x2048 .f32) (p : Fin 2048) (q : Fin 512) :
    k0_pay1 (F := Ideal) x0 x1 x2 x3 x4 (ix2 p q)
      = x4 (ix2 q p) + (∑ k : Fin 64, (∑ j : Fin 64, (∑ l : Fin 64, x0 (ix2 q l) * x1 (ix2 l j)) * x2 (ix2 j k)) * x3 (ix2 k p)) * 1 := by
  unfold k0_pay1
  dsimp only
  rw [truncf_apply, transpose_apply [1, 0] _ transposes_S512x2048_p1_0_S2048x512 (ix2 p q) (ix2 q p)
      (fun b => by match b with | ⟨0, _⟩ => rfl | ⟨1, _⟩ => rfl),
    addf_apply, mulf_apply, broadcast_apply, mm_512_64_2048]
  simp only [truncf_apply, mm_512_64_64, Ideal.ofBits_def, Cert.ExtendedReals.ofBits_one_f32]

/-- The second body's stored value at (row `r`, output `q`): the row of the activation block against the column of the
    adapted weight, plus the bias at `q`. -/
theorem matmul_payload_apply (v0 : Vec Ideal S512x2048 .f32) (v3 : Vec Ideal S2048x2048 .bf16) (v6 : Vec Ideal S1x2048 .f32)
    (r : Fin 512) (q : Fin 2048) :
    k1_pay1 (F := Ideal) v0 v3 v6 (ix2 r q) = (∑ k : Fin 2048, v0 (ix2 r k) * v3 (ix2 k q)) + v6 (ix2 (0 : Fin 1) q) := by
  unfold k1_pay1
  rw [addf_apply, mm_512_2048_2048, broadcastTo_1b_ab_apply]
  simp only [truncf_apply, shapeCast_self]

end Cert.KernelIdeal.Payloads

end
-- ==== Proof.LibRealSums.lean ====
/-
  Pure algebra over the extended reals, for the edge sums of a graph convolution.

  An extended real is REAL when it is neither infinity. Zero, one, sums, products, maxima and finite sums of real
  extended reals are real, and among real extended reals the ordinary laws of a commutative ring hold (they fail in general:
  multiplication does not distribute over addition when an infinity meets a sign change). The law proved here is the one a
  graph convolution needs: multiplying a row by a weight matrix commutes with summing rows over a set of edges, with a
  scaling of every summand and a scaling of the total.
-/
import Mathlib.Data.EReal.Operations
import Mathlib.Algebra.BigOperators.Ring.Finset
import Mathlib.Algebra.BigOperators.Group.Finset.Sigma
import Mathlib.Tactic.Ring

namespace Cert.KernelIdeal.EdgeSum

open scoped BigOperators

/-- An extended real that is an ordinary real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- Real means neither infinity. -/
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (hx : IsReal x) : x ≠ ⊤ := (isReal_iff.1 hx).2

theorem IsReal.ne_bot {x : EReal} (hx : IsReal x) : x ≠ ⊥ := (isReal_iff.1 hx).1

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.min {x y : EReal} (hx : IsReal x) (hy : IsReal y) : IsReal (min x y) := by
  rcases min_choice x y with h | h <;> rw [h] <;> assumption

/-- An extended real whose absolute value (the larger of it and its negation) is below infinity is real. -/
theorem isReal_of_abs_lt_top {x : EReal} (h : max x (-x) < ⊤) : IsReal x := by
  rw [isReal_iff]
  constructor
  · rintro rfl
    simp at h
  · rintro rfl
    simp at h

/-- The coercion of the reals into the extended reals carries a finite sum to the finite sum. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A matrix product passes through a sum over edges and two scalings, when every number involved is real:
    summing over the edges `e ∈ P` the rows `a e ·` times the weights, each scaled by `o e`, then scaling the total
    by `s`, is the same as first summing the scaled rows, scaling by `s`, and multiplying by the weights last. -/
theorem sum_edges_matmul {E : Type} (P : Finset E) (a : E → Fin 128 → EReal) (o : E → EReal) (w : Fin 128 → EReal)
    (s : EReal) (ha : ∀ e k, ∃ r : ℝ, a e k = (r : EReal)) (ho : ∀ e, ∃ r : ℝ, o e = (r : EReal))
    (hw : ∀ k, ∃ r : ℝ, w k = (r : EReal)) (hs : ∃ r : ℝ, s = (r : EReal)) :
    (∑ e ∈ P, (∑ k, a e k * w k) * o e) * s = ∑ k, ((∑ e ∈ P, a e k * o e) * s) * w k := by
  choose a' ha' using ha
  choose o' ho' using ho
  choose w' hw' using hw
  obtain ⟨s', rfl⟩ := hs
  have hL : (∑ e ∈ P, (∑ k, a e k * w k) * o e) * (s' : EReal)
      = (((∑ e ∈ P, (∑ k, a' e k * w' k) * o' e) * s' : ℝ) : EReal) := by
    rw [EReal.coe_mul, coe_finset_sum]
    congr 1
    refine Finset.sum_congr rfl fun e _ => ?_
    rw [EReal.coe_mul, coe_finset_sum, ho' e]
    congr 1
    refine Finset.sum_congr rfl fun k _ => ?_
    rw [EReal.coe_mul, ha' e k, hw' k]
  have hR : ∑ k, ((∑ e ∈ P, a e k * o e) * (s' : EReal)) * w k
      = ((∑ k, ((∑ e ∈ P, a' e k * o' e) * s') * w' k : ℝ) : EReal) := by
    rw [coe_finset_sum]
    refine Finset.sum_congr rfl fun k _ => ?_
    rw [EReal.coe_mul, EReal.coe_mul, coe_finset_sum, hw' k]
    congr 2
    refine Finset.sum_congr rfl fun e _ => ?_
    rw [EReal.coe_mul, ha' e k, ho' e]
  rw [hL, hR]
  congr 1
  simp only [Finset.sum_mul]
  rw [Finset.sum_comm]
  refine Finset.sum_congr rfl fun k _ => Finset.sum_congr rfl fun e _ => ?_
  ring

end Cert.KernelIdeal.EdgeSum
-- ==== Proof.LoraAlgebra.lean ====
/-
  The mathematics of a low-rank-adapted linear layer, over the extended reals.

  A weight matrix `W` (outputs × inputs) is adapted by a rank-64 update `δ = ((U σ) R) Vt`. One program folds the
  update into the weight first and contracts once, `∑ᵢ xᵢ (W o i + δ o i · 1) + bias o`; the other contracts the
  weight and the update separately and adds, `(∑ᵢ xᵢ W o i + bias o) + ∑ᵢ xᵢ (1 · δ o i)`. The two agree by
  distributivity of multiplication over addition and by splitting a finite sum of sums. Distributivity fails on the
  extended reals when an infinity meets a sign change, so the law is stated for entries that are real numbers,
  where it is inherited from ℝ through the coercion.
-/
import proofs.«175021_j76733885710753_2_alg».proof.Proof.LibRealSums

noncomputable section

namespace Cert.Lora

open scoped BigOperators
open Cert.KernelIdeal.EdgeSum

/-- The rank-64 update of the weight at output `o` and input `i`: the product `((U σ) R) Vt`, associated to the
    left, each factor a sum over 64 terms. -/
def delta (U : Fin 2048 → Fin 64 → EReal) (σ R : Fin 64 → Fin 64 → EReal) (Vt : Fin 64 → Fin 2048 → EReal)
    (o i : Fin 2048) : EReal :=
  ∑ k : Fin 64, (∑ j : Fin 64, (∑ l : Fin 64, U o l * σ l j) * R j k) * Vt k i

/-- Folding first: one contraction against the adapted weight, then the bias. -/
def foldedOut (x : Fin 4 → Fin 2048 → Fin 2048 → EReal) (W : Fin 2048 → Fin 2048 → EReal) (bias : Fin 2048 → EReal)
    (U : Fin 2048 → Fin 64 → EReal) (σ R : Fin 64 → Fin 64 → EReal) (Vt : Fin 64 → Fin 2048 → EReal)
    (b : Fin 4) (s o : Fin 2048) : EReal :=
  (∑ i : Fin 2048, x b s i * (W o i + delta U σ R Vt o i * 1)) + bias o

/-- Contracting separately: the base layer with its bias, plus the contraction against the update. -/
def splitOut (x : Fin 4 → Fin 2048 → Fin 2048 → EReal) (W : Fin 2048 → Fin 2048 → EReal) (bias : Fin 2048 → EReal)
    (U : Fin 2048 → Fin 64 → EReal) (σ R : Fin 64 → Fin 64 → EReal) (Vt : Fin 64 → Fin 2048 → EReal)
    (b : Fin 4) (s o : Fin 2048) : EReal :=
  ((∑ i : Fin 2048, x b s i * W o i) + bias o) + ∑ i : Fin 2048, x b s i * (1 * delta U σ R Vt o i)

/-- The update of real factors is real. -/
theorem isReal_delta {U : Fin 2048 → Fin 64 → EReal} {σ R : Fin 64 → Fin 64 → EReal} {Vt : Fin 64 → Fin 2048 → EReal}
    (hU : ∀ o l, IsReal (U o l)) (hσ : ∀ l j, IsReal (σ l j)) (hR : ∀ j k, IsReal (R j k))
    (hVt : ∀ k i, IsReal (Vt k i)) (o i : Fin 2048) : IsReal (delta U σ R Vt o i) :=
  IsReal.sum _ _ fun k _ => (IsReal.sum _ _ fun j _ => (IsReal.sum _ _ fun l _ => (hU o l).mul (hσ l j)).mul (hR j k)).mul (hVt k i)

/-- The joining law on one row: for real entries, contracting against `w + d · 1` and adding `b` is contracting
    against `w`, adding `b`, and adding the contraction against `1 · d`. -/
theorem fold_eq_split {ι : Type} [Fintype ι] (x w d : ι → EReal) (b : EReal)
    (hx : ∀ i, IsReal (x i)) (hw : ∀ i, IsReal (w i)) (hd : ∀ i, IsReal (d i)) (hb : IsReal b) :
    (∑ i, x i * (w i + d i * 1)) + b = ((∑ i, x i * w i) + b) + ∑ i, x i * (1 * d i) := by
  choose x' hx' using hx
  choose w' hw' using hw
  choose d' hd' using hd
  obtain ⟨b', rfl⟩ := hb
  have hL : (∑ i, x i * (w i + d i * 1)) + (b' : EReal) = (((∑ i, x' i * (w' i + d' i)) + b' : ℝ) : EReal) := by
    rw [EReal.coe_add, coe_finset_sum]
    congr 1
    refine Finset.sum_congr rfl fun i _ => ?_
    rw [hx' i, hw' i, hd' i, mul_one, ← EReal.coe_add, ← EReal.coe_mul]
  have hR : ((∑ i, x i * w i) + (b' : EReal)) + ∑ i, x i * (1 * d i)
      = ((((∑ i, x' i * w' i) + b') + ∑ i, x' i * d' i : ℝ) : EReal) := by
    rw [EReal.coe_add, EReal.coe_add, coe_finset_sum, coe_finset_sum]
    congr 1
    · congr 1
      refine Finset.sum_congr rfl fun i _ => ?_
      rw [hx' i, hw' i, ← EReal.coe_mul]
    · refine Finset.sum_congr rfl fun i _ => ?_
      rw [hx' i, hd' i, one_mul, ← EReal.coe_mul]
  rw [hL, hR]
  congr 1
  simp only [mul_add, Finset.sum_add_distrib]
  ring

/-- For real inputs the two orders of computing the adapted layer agree at every output. -/
theorem foldedOut_eq_splitOut {x : Fin 4 → Fin 2048 → Fin 2048 → EReal} {W : Fin 2048 → Fin 2048 → EReal}
    {bias : Fin 2048 → EReal} {U : Fin 2048 → Fin 64 → EReal} {σ R : Fin 64 → Fin 64 → EReal}
    {Vt : Fin 64 → Fin 2048 → EReal}
    (hx : ∀ b s i, IsReal (x b s i)) (hW : ∀ o i, IsReal (W o i)) (hbias : ∀ o, IsReal (bias o))
    (hU : ∀ o l, IsReal (U o l)) (hσ : ∀ l j, IsReal (σ l j)) (hR : ∀ j k, IsReal (R j k))
    (hVt : ∀ k i, IsReal (Vt k i)) (b : Fin 4) (s o : Fin 2048) :
    foldedOut x W bias U σ R Vt b s o = splitOut x W bias U σ R Vt b s o :=
  fold_eq_split (fun i => x b s i) (fun i => W o i) (fun i => delta U σ R Vt o i) (bias o)
    (fun i => hx b s i) (fun i => hW o i) (fun i => isReal_delta hU hσ hR hVt o i) (hbias o)

end Cert.Lora

end
-- ==== Proof.Spec.lean ====
/-
  The two closed forms of the adapted linear layer over arrays of the programs' literal shapes.

  An activation array `x` of shape [4, 2048, 2048] (batch, position, input), a weight `W` [2048, 2048]
  (output, input), a bias [2048], and the factors of the update `U` [2048, 64], `σ`, `R` [64, 64], `Vt` [64, 2048]
  give a result of shape [4, 2048, 2048] (batch, position, output). `foldedArr` adds the update into the weight and
  contracts once; `splitArr` contracts the weight and the update separately. For real entries they are one array.
-/
import proofs.«175021_j76733885710753_2_alg».proof.Proof.LoraAlgebra
import Idealize.ShloMosaic.PureOps.Ideal
import Idealize.ShloMosaic.Lib.ValueIdx

noncomputable section

namespace Cert.Lora

open Idealize.ShloMosaic Idealize.ShloMosaic.ValueIdx
open Cert.KernelIdeal.EdgeSum

/-- A rank-3 array read by its three coordinates. -/
def rows3 {a b c : Nat} (x : (⟨3, ![a, b, c]⟩ : Shape).Idx → EReal) : Fin a → Fin b → Fin c → EReal :=
  fun p q r => x (ix3 p q r)

/-- A matrix read by row and column. -/
def mat {a b : Nat} (w : (⟨2, ![a, b]⟩ : Shape).Idx → EReal) : Fin a → Fin b → EReal := fun p q => w (ix2 p q)

/-- A vector read by its coordinate. -/
def vec {a : Nat} (v : (⟨1, ![a]⟩ : Shape).Idx → EReal) : Fin a → EReal := fun p => v (ix1 p)

/-- Update folded into the weight, one contraction, bias added: at (batch, position, output). -/
def foldedArr (x : (⟨3, ![4, 2048, 2048]⟩ : Shape).Idx → EReal) (W : (⟨2, ![2048, 2048]⟩ : Shape).Idx → EReal)
    (bias : (⟨1, ![2048]⟩ : Shape).Idx → EReal) (U : (⟨2, ![2048, 64]⟩ : Shape).Idx → EReal)
    (σ R : (⟨2, ![64, 64]⟩ : Shape).Idx → EReal) (Vt : (⟨2, ![64, 2048]⟩ : Shape).Idx → EReal) :
    (⟨3, ![4, 2048, 2048]⟩ : Shape).Idx → EReal :=
  fun i => foldedOut (rows3 x) (mat W) (vec bias) (mat U) (mat σ) (mat R) (mat Vt) (i 0) (i 1) (i 2)

/-- Base layer with bias plus the separate contraction against the update: at (batch, position, output). -/
def splitArr (x : (⟨3, ![4, 2048, 2048]⟩ : Shape).Idx → EReal) (W : (⟨2, ![2048, 2048]⟩ : Shape).Idx → EReal)
    (bias : (⟨1, ![2048]⟩ : Shape).Idx → EReal) (U : (⟨2, ![2048, 64]⟩ : Shape).Idx → EReal)
    (σ R : (⟨2, ![64, 64]⟩ : Shape).Idx → EReal) (Vt : (⟨2, ![64, 2048]⟩ : Shape).Idx → EReal) :
    (⟨3, ![4, 2048, 2048]⟩ : Shape).Idx → EReal :=
  fun i => splitOut (rows3 x) (mat W) (vec bias) (mat U) (mat σ) (mat R) (mat Vt) (i 0) (i 1) (i 2)

/-- The adapted weight laid out inputs × outputs: entry (input i, output o) is `W (o, i) + δ (o, i) · 1`. -/
def adaptedT (W : (⟨2, ![2048, 2048]⟩ : Shape).Idx → EReal) (U : (⟨2, ![2048, 64]⟩ : Shape).Idx → EReal)
    (σ R : (⟨2, ![64, 64]⟩ : Shape).Idx → EReal) (Vt : (⟨2, ![64, 2048]⟩ : Shape).Idx → EReal) :
    (⟨2, ![2048, 2048]⟩ : Shape).Idx → EReal :=
  fun j => W (ix2 (j 1) (j 0)) + delta (mat U) (mat σ) (mat R) (mat Vt) (j 1) (j 0) * 1

/-- Rows against a matrix laid out inputs × outputs, plus a one-row bias: entry (row r, output o) is
    `∑ₖ X (r, k) · M (k, o) + B (0, o)`. -/
def affineRows (X : (⟨2, ![8192, 2048]⟩ : Shape).Idx → EReal) (M : (⟨2, ![2048, 2048]⟩ : Shape).Idx → EReal)
    (B : (⟨2, ![1, 2048]⟩ : Shape).Idx → EReal) : (⟨2, ![8192, 2048]⟩ : Shape).Idx → EReal :=
  fun j => (∑ k : Fin 2048, X (ix2 (j 0) k) * M (ix2 k (j 1))) + B (ix2 (0 : Fin 1) (j 1))

/-- With every entry of every input a real number, the folded and the split arrays are equal. -/
theorem foldedArr_eq_splitArr {x : (⟨3, ![4, 2048, 2048]⟩ : Shape).Idx → EReal}
    {W : (⟨2, ![2048, 2048]⟩ : Shape).Idx → EReal} {bias : (⟨1, ![2048]⟩ : Shape).Idx → EReal}
    {U : (⟨2, ![2048, 64]⟩ : Shape).Idx → EReal} {σ R : (⟨2, ![64, 64]⟩ : Shape).Idx → EReal}
    {Vt : (⟨2, ![64, 2048]⟩ : Shape).Idx → EReal}
    (hx : ∀ i, IsReal (x i)) (hW : ∀ i, IsReal (W i)) (hbias : ∀ i, IsReal (bias i)) (hU : ∀ i, IsReal (U i))
    (hσ : ∀ i, IsReal (σ i)) (hR : ∀ i, IsReal (R i)) (hVt : ∀ i, IsReal (Vt i)) :
    foldedArr x W bias U σ R Vt = splitArr x W bias U σ R Vt :=
  funext fun i => foldedOut_eq_splitOut (fun _ _ _ => hx _) (fun _ _ => hW _) (fun _ => hbias _) (fun _ _ => hU _)
    (fun _ _ => hσ _) (fun _ _ => hR _) (fun _ _ => hVt _) (i 0) (i 1) (i 2)

end Cert.Lora

end
-- ==== Proof.Region0.lean ====
/-
  What the first region leaves in its output array.

  The region has four grid points. Point `t` is handed rows `512 t … 512 t + 511` of `U` and of `W` and the whole of
  `σ`, `R` and `Vt`, and writes back the block of columns `512 t … 512 t + 511` of an array of inputs × outputs. What
  it writes is that block of ONE array, the adapted weight transposed: entry (input i, output o) is
  `W (o, i) + δ (o, i) · 1`. The four blocks tile the array, so after the region the array is that function of the
  arguments as the region found them.
-/
import proofs.«175021_j76733885710753_2_alg».proof.Proof.Gen.KernelIdeal.Frame
import proofs.«175021_j76733885710753_2_alg».proof.Proof.Payloads
import proofs.«175021_j76733885710753_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Payloads Cert.Lora
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the four points: the `U` and `W` windows move on their row axis with the
    output's column axis, every other block index is zero, and the output's column block is one of 0 … 3. -/
theorem index_facts : ∀ t : Fin cfg0.N,
    win0_0.index t (0 : Fin 2) = win0_5.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_5.index t (1 : Fin 2) ∧ win0_4.index t (1 : Fin 2) = 0
    ∧ win0_5.index t (0 : Fin 2) = 0 ∧ win0_5.index t (1 : Fin 2) ≤ 3 :=
  (by decide +kernel : ∀ t : Fin grid0.N, _)

/-- Every column block 0 … 3 is some point's. -/
theorem index_onto : ∀ q : Fin 4, ∃ t : Fin cfg0.N, win0_5.index t = ![0, q.val] :=
  (by decide +kernel : ∀ q : Fin 4, ∃ t : Fin grid0.N, win0_5.index t = ![0, q.val])

/-- What point `t` writes back is block `t` of the adapted weight transposed, of the arrays as the region finds them. -/
theorem flushed_eq (c : Dev nD) (t : Fin cfg0.N) :
    (dat0 (F := Ideal) V c).flushed 5 t = ((cfg0.win 5).blk t).view.read (Elt Ideal)
      (adaptedT (V c main_arg1) (V c main_arg3) (V c main_arg4) (V c main_arg5) (V c main_arg6)) := by
  show (cfg0.win 5).cut (grid0.coords t) ((dat0 (F := Ideal) V c).after 5 t) = _
  rw [after0_5]
  unfold out0_5
  rw [View.canon_unit_zero zero_offsets]
  simp only [View.ld_unit_zero (S := S512x64) zero_offsets, View.ld_unit_zero (S := S64x64) zero_offsets,
    View.ld_unit_zero (S := S64x2048) zero_offsets, View.ld_unit_zero (S := S512x2048) zero_offsets]
  obtain ⟨e00, e01, e10, e11, e20, e21, e30, e31, e40, e41, e50, e51⟩ := index_facts t
  funext j
  obtain ⟨p, q, rfl⟩ : ∃ (p : Fin 2048) (q : Fin 512), j = ix2 p q := ⟨j 0, j 1, eq_ix2 j⟩
  show k0_pay1 (iblk0 V c 0 t) (iblk0 V c 1 t) (iblk0 V c 2 t) (iblk0 V c 3 t) (iblk0 V c 4 t) (ix2 p q)
    = adaptedT (V c main_arg1) (V c main_arg3) (V c main_arg4) (V c main_arg5) (V c main_arg6)
        (((cfg0.win 5).blk t).view.emb (ix2 p q))
  refine (delta_payload_apply (iblk0 V c 0 t) (iblk0 V c 1 t) (iblk0 V c 2 t) (iblk0 V c 3 t) (iblk0 V c 4 t) p q).trans ?_
  -- the output column this entry lands in
  have ho : win0_5.index t (1 : Fin 2) * 512 + q.val < 2048 := by have := q.isLt; omega
  have hemb : ((cfg0.win 5).blk t).view.emb (ix2 p q)
      = ix2 p (⟨win0_5.index t (1 : Fin 2) * 512 + q.val, ho⟩ : Fin 2048) := by
    funext a; apply Fin.ext
    match a with
    | ⟨0, _⟩ => show win0_5.index t (0 : Fin 2) * 2048 + 1 * p.val = p.val; omega
    | ⟨1, _⟩ => show win0_5.index t (1 : Fin 2) * 512 + 1 * q.val = win0_5.index t (1 : Fin 2) * 512 + q.val; omega
  rw [hemb]
  have h4 : iblk0 V c 4 t (ix2 q p) = V c main_arg1 (ix2 (⟨win0_5.index t (1 : Fin 2) * 512 + q.val, ho⟩ : Fin 2048) p) := by
    show V c main_arg1 (((cfg0.win 4).blk t).view.emb (ix2 q p)) = _
    refine congrArg _ (funext fun a => Fin.ext ?_)
    match a with
    | ⟨0, _⟩ => show win0_4.index t (0 : Fin 2) * 512 + 1 * q.val = win0_5.index t (1 : Fin 2) * 512 + q.val; omega
    | ⟨1, _⟩ => show win0_4.index t (1 : Fin 2) * 2048 + 1 * p.val = p.val; omega
  have h0 : ∀ l : Fin 64, iblk0 V c 0 t (ix2 q l)
      = V c main_arg3 (ix2 (⟨win0_5.index t (1 : Fin 2) * 512 + q.val, ho⟩ : Fin 2048) l) := fun l => by
    show V c main_arg3 (((cfg0.win 0).blk t).view.emb (ix2 q l)) = _
    refine congrArg _ (funext fun a => Fin.ext ?_)
    match a with
    | ⟨0, _⟩ => show win0_0.index t (0 : Fin 2) * 512 + 1 * q.val = win0_5.index t (1 : Fin 2) * 512 + q.val; omega
    | ⟨1, _⟩ => show win0_0.index t (1 : Fin 2) * 64 + 1 * l.val = l.val; omega
  have h1 : ∀ l j : Fin 64, iblk0 V c 1 t (ix2 l j) = V c main_arg4 (ix2 l j) := fun l j => by
    show V c main_arg4 (((cfg0.win 1).blk t).view.emb (ix2 l j)) = _
    refine congrArg _ (funext fun a => Fin.ext ?_)
    match a with
    | ⟨0, _⟩ => show win0_1.index t (0 : Fin 2) * 64 + 1 * l.val = l.val; omega
    | ⟨1, _⟩ => show win0_1.index t (1 : Fin 2) * 64 + 1 * j.val = j.val; omega
  have h2 : ∀ j k : Fin 64, iblk0 V c 2 t (ix2 j k) = V c main_arg5 (ix2 j k) := fun j k => by
    show V c main_arg5 (((cfg0.win 2).blk t).view.emb (ix2 j k)) = _
    refine congrArg _ (funext fun a => Fin.ext ?_)
    match a with
    | ⟨0, _⟩ => show win0_2.index t (0 : Fin 2) * 64 + 1 * j.val = j.val; omega
    | ⟨1, _⟩ => show win0_2.index t (1 : Fin 2) * 64 + 1 * k.val = k.val; omega
  have h3 : ∀ k : Fin 64, iblk0 V c 3 t (ix2 k p) = V c main_arg6 (ix2 k p) := fun k => by
    show V c main_arg6 (((cfg0.win 3).blk t).view.emb (ix2 k p)) = _
    refine congrArg _ (funext fun a => Fin.ext ?_)
    match a with
    | ⟨0, _⟩ => show win0_3.index t (0 : Fin 2) * 64 + 1 * k.val = k.val; omega
    | ⟨1, _⟩ => show win0_3.index t (1 : Fin 2) * 2048 + 1 * p.val = p.val; omega
  simp only [h4, h0, h1, h2, h3]
  rfl

/-- An index of the array is in point `t`'s block iff each coordinate is in the block's range on its axis. -/
theorem mem_block (t : Fin cfg0.N) (i : S2048x2048.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v0).slice (win0_5.rect t)).set ↔ _
  rw [View.set_slice_whole, Rect.mem_set_unit]
  exact Iff.rfl

/-- The four column blocks tile the array: the point that covers column `o` is the one whose block is `o / 512`. -/
theorem cover (i : S2048x2048.Idx) :
    ∃ t : Fin cfg0.N, (cfg0.win 5).flush t = true ∧ i ∈ ((cfg0.win 5).blk t).view.set := by
  have hi0 : (i 0).val < 2048 := (i 0).isLt
  have hi1 : (i 1).val < 2048 := (i 1).isLt
  obtain ⟨t, ht⟩ := index_onto ⟨(i 1).val / 512, by omega⟩
  have q0 : win0_5.index t (0 : Fin 2) = 0 := congrFun ht 0
  have q1 : win0_5.index t (1 : Fin 2) = (i 1).val / 512 := congrFun ht 1
  refine ⟨t, flush0_5 t, ?_⟩
  rw [mem_block]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 512 ≤ (i 1).val ∧ (i 1).val < win0_5.index t (1 : Fin 2) * 512 + 512; omega

/-- After the region its output array is the adapted weight transposed, of the arrays as the region found them. -/
theorem final (c : Dev nD) :
    (dat0 (F := Ideal) V c).arrAt 5 cfg0.N
      = adaptedT (V c main_arg1) (V c main_arg3) (V c main_arg4) (V c main_arg5) (V c main_arg6) :=
  (dat0 (F := Ideal) V c).arrAt_eq_of_cover 5 _ (fun t _ => flushed_eq V c t) cover

end Cert.KernelIdeal.Region0

end
-- ==== Proof.Region1.lean ====
/-
  What the second region leaves in its output array.

  The region has sixteen grid points. Point `t` is handed rows `512 t … 512 t + 511` of the activations laid out as
  8192 rows, the whole adapted weight (inputs × outputs) and the one-row bias, and writes back the same rows of the
  result. What it writes is that block of ONE array: entry (row r, output o) is `∑ₖ X (r, k) · M (k, o) + B (0, o)`.
  The sixteen row blocks tile the array, so after the region the array is that function of the three arrays as the
  region found them.
-/
import proofs.«175021_j76733885710753_2_alg».proof.Proof.Gen.KernelIdeal.Frame
import proofs.«175021_j76733885710753_2_alg».proof.Proof.Payloads
import proofs.«175021_j76733885710753_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Payloads Cert.Lora
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the sixteen points: the activation window moves on its row axis with the
    output's, every other block index is zero, and the output's row block is one of 0 … 15. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 15 ∧ win1_3.index t (1 : Fin 2) = 0 :=
  (by decide +kernel : ∀ t : Fin grid1.N, _)

/-- Every row block 0 … 15 is some point's. -/
theorem index_onto : ∀ q : Fin 16, ∃ t : Fin cfg1.N, win1_3.index t = ![q.val, 0] :=
  (by decide +kernel : ∀ q : Fin 16, ∃ t : Fin grid1.N, win1_3.index t = ![q.val, 0])

/-- What point `t` writes back is block `t` of the rows-times-matrix-plus-bias array, of the arrays as the region
    finds them. -/
theorem flushed_eq (c : Dev nD) (t : Fin cfg1.N) :
    (dat1 (F := Ideal) V c).flushed 3 t = ((cfg1.win 3).blk t).view.read (Elt Ideal)
      (affineRows (V c main_v1) (V c main_v0) (V c main_v2)) := by
  show (cfg1.win 3).cut (grid1.coords t) ((dat1 (F := Ideal) V c).after 3 t) = _
  rw [after1_3]
  unfold out1_3
  rw [View.canon_unit_zero zero_offsets]
  simp only [View.ld_unit_zero (S := S512x2048) zero_offsets, View.ld_unit_zero (S := S2048x2048) zero_offsets,
    View.ld_unit_zero (S := S1x2048) zero_offsets]
  obtain ⟨e00, e01, e10, e11, e20, e21, e30, e31⟩ := index_facts t
  funext j
  obtain ⟨r, q, rfl⟩ : ∃ (r : Fin 512) (q : Fin 2048), j = ix2 r q := ⟨j 0, j 1, eq_ix2 j⟩
  show k1_pay1 (iblk1 V c 0 t) (iblk1 V c 1 t) (iblk1 V c 2 t) (ix2 r q)
    = affineRows (V c main_v1) (V c main_v0) (V c main_v2) (((cfg1.win 3).blk t).view.emb (ix2 r q))
  refine (matmul_payload_apply (iblk1 V c 0 t) (iblk1 V c 1 t) (iblk1 V c 2 t) r q).trans ?_
  -- the row of the whole array this entry lands in
  have hr : win1_3.index t (0 : Fin 2) * 512 + r.val < 8192 := by have := r.isLt; omega
  have hemb : ((cfg1.win 3).blk t).view.emb (ix2 r q)
      = ix2 (⟨win1_3.index t (0 : Fin 2) * 512 + r.val, hr⟩ : Fin 8192) q := by
    funext a; apply Fin.ext
    match a with
    | ⟨0, _⟩ => show win1_3.index t (0 : Fin 2) * 512 + 1 * r.val = win1_3.index t (0 : Fin 2) * 512 + r.val; omega
    | ⟨1, _⟩ => show win1_3.index t (1 : Fin 2) * 2048 + 1 * q.val = q.val; omega
  rw [hemb]
  have h0 : ∀ k : Fin 2048, iblk1 V c 0 t (ix2 r k)
      = V c main_v1 (ix2 (⟨win1_3.index t (0 : Fin 2) * 512 + r.val, hr⟩ : Fin 8192) k) := fun k => by
    show V c main_v1 (((cfg1.win 0).blk t).view.emb (ix2 r k)) = _
    refine congrArg _ (funext fun a => Fin.ext ?_)
    match a with
    | ⟨0, _⟩ => show win1_0.index t (0 : Fin 2) * 512 + 1 * r.val = win1_3.index t (0 : Fin 2) * 512 + r.val; omega
    | ⟨1, _⟩ => show win1_0.index t (1 : Fin 2) * 2048 + 1 * k.val = k.val; omega
  have h1 : ∀ k : Fin 2048, iblk1 V c 1 t (ix2 k q) = V c main_v0 (ix2 k q) := fun k => by
    show V c main_v0 (((cfg1.win 1).blk t).view.emb (ix2 k q)) = _
    refine congrArg _ (funext fun a => Fin.ext ?_)
    match a with
    | ⟨0, _⟩ => show win1_1.index t (0 : Fin 2) * 2048 + 1 * k.val = k.val; omega
    | ⟨1, _⟩ => show win1_1.index t (1 : Fin 2) * 2048 + 1 * q.val = q.val; omega
  have h2 : iblk1 V c 2 t (ix2 (0 : Fin 1) q) = V c main_v2 (ix2 (0 : Fin 1) q) := by
    show V c main_v2 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 2048 + 1 * q.val = q.val; omega
  simp only [h0, h1, h2]
  rfl

/-- An index of the array is in point `t`'s block iff each coordinate is in the block's range on its axis. -/
theorem mem_block (t : Fin cfg1.N) (i : S8192x2048.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v3).slice (win1_3.rect t)).set ↔ _
  rw [View.set_slice_whole, Rect.mem_set_unit]
  exact Iff.rfl

/-- The sixteen row blocks tile the array: the point that covers row `r` is the one whose block is `r / 512`. -/
theorem cover (i : S8192x2048.Idx) :
    ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := index_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- After the region its output array is rows-times-matrix-plus-bias of the arrays as the region found them. -/
theorem final (c : Dev nD) :
    (dat1 (F := Ideal) V c).arrAt 3 cfg1.N = affineRows (V c main_v1) (V c main_v0) (V c main_v2) :=
  (dat1 (F := Ideal) V c).arrAt_eq_of_cover 3 _ (fun t _ => flushed_eq V c t) cover

end Cert.KernelIdeal.Region1

end
-- ==== Proof.Compose.lean ====
/-
  The two regions, joined by the reshapes around them, compute the folded form.

  The activations [4, 2048, 2048] are flattened to 8192 rows (row `2048 b + s` is batch `b`, position `s`), the bias
  vector is recast as one row, the rows are taken against the adapted weight laid out inputs × outputs with the bias
  row added, and the 8192 result rows are cut back into [4, 2048, 2048]. A reshape keeps the row-major position of
  every entry, so at (batch, position, output) the result is
  `∑ᵢ x (b, s, i) · (W (o, i) + δ (o, i) · 1) + bias o`.
-/
import proofs.«175021_j76733885710753_2_alg».proof.Proof.Spec
import Idealize.ShloMosaic.Lib.Pipeline.Value
import Idealize.ShloMosaic.Lib.ValueIdx
import Idealize.ShloMosaic.Lib.ValueLayout

noncomputable section

namespace Cert.Lora

open Idealize.ShloMosaic Idealize.ShloMosaic.ValueIdx

/-- Flatten, contract against the adapted weight with the bias row, and cut back: the folded form of the layer. -/
theorem reshape_affineRows_eq_foldedArr
    (x : (⟨3, ![4, 2048, 2048]⟩ : Shape).Idx → EReal) (W : (⟨2, ![2048, 2048]⟩ : Shape).Idx → EReal)
    (bias : (⟨1, ![2048]⟩ : Shape).Idx → EReal) (U : (⟨2, ![2048, 64]⟩ : Shape).Idx → EReal)
    (σ R : (⟨2, ![64, 64]⟩ : Shape).Idx → EReal) (Vt : (⟨2, ![64, 2048]⟩ : Shape).Idx → EReal)
    (hx : (⟨3, ![4, 2048, 2048]⟩ : Shape).ShapeCasts ⟨2, ![8192, 2048]⟩)
    (hb : (⟨1, ![2048]⟩ : Shape).ShapeCasts ⟨2, ![1, 2048]⟩)
    (hy : (⟨2, ![8192, 2048]⟩ : Shape).ShapeCasts ⟨3, ![4, 2048, 2048]⟩) :
    shapeCast ⟨3, ![4, 2048, 2048]⟩
        (affineRows (shapeCast ⟨2, ![8192, 2048]⟩ x hx) (adaptedT W U σ R Vt) (shapeCast ⟨2, ![1, 2048]⟩ bias hb)) hy
      = foldedArr x W bias U σ R Vt := by
  funext i
  obtain ⟨b, s, o, rfl⟩ : ∃ (b : Fin 4) (s o : Fin 2048), i = ix3 b s o := ⟨i 0, i 1, i 2, eq_ix3 i⟩
  have hr : b.val * 2048 + s.val < 8192 := by have := b.isLt; have := s.isLt; omega
  rw [shapeCast_apply _ hy (ix3 b s o) (ix2 (⟨b.val * 2048 + s.val, hr⟩ : Fin 8192) o) (by
    rw [Shape.rowMajor_val_two, Shape.rowMajor_val_three]
    show (b.val * 2048 + s.val) * 2048 + o.val = (b.val * 2048 + s.val) * 2048 + o.val
    rfl)]
  show (∑ k : Fin 2048, shapeCast ⟨2, ![8192, 2048]⟩ x hx (ix2 (⟨b.val * 2048 + s.val, hr⟩ : Fin 8192) k)
        * adaptedT W U σ R Vt (ix2 k o)) + shapeCast ⟨2, ![1, 2048]⟩ bias hb (ix2 (0 : Fin 1) o) = _
  rw [shapeCast_a_1a_apply]
  have hrow : ∀ k : Fin 2048, shapeCast ⟨2, ![8192, 2048]⟩ x hx (ix2 (⟨b.val * 2048 + s.val, hr⟩ : Fin 8192) k)
      = x (ix3 b s k) := fun k =>
    shapeCast_apply _ hx _ (ix3 b s k) (by
      rw [Shape.rowMajor_val_two, Shape.rowMajor_val_three]
      show (b.val * 2048 + s.val) * 2048 + k.val = (b.val * 2048 + s.val) * 2048 + k.val
      rfl)
  simp only [hrow]
  rfl

end Cert.Lora

end
-- ==== Proof.Boundaries.lean ====
/-
  The result buffer at the last segment boundary, read back to the launch memory.

  Going backwards: the result is the reshape to [4, 2048, 2048] of the second region's output array; that array is
  rows-times-matrix-plus-bias of three buffers at the region's entry — the activations flattened to 8192 rows and the
  bias recast as one row (two host reshapes of arguments, which no earlier step has written) and the first region's
  output array, which the host reshapes leave alone; and the first region's output array is the adapted weight
  transposed of the arguments at launch. Composed, the result is the folded form of the seven argument arrays.
-/
import proofs.«175021_j76733885710753_2_alg».proof.Proof.KernelRun
import proofs.«175021_j76733885710753_2_alg».proof.Proof.Region0
import proofs.«175021_j76733885710753_2_alg».proof.Proof.Region1
import proofs.«175021_j76733885710753_2_alg».proof.Proof.Compose
import Idealize.ShloMosaic.Lib.StableHlo.Run

set_option maxRecDepth 16384

noncomputable section

namespace Cert.KernelIdeal.Boundaries

open Cert.KernelIdeal Cert.KernelIdeal.Gen Cert.Lora
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The first region's output array at its exit: the adapted weight transposed, of the arguments at launch. -/
theorem exit0_weight (c : Dev nD) : W1 m ρ c (Proc.devRef .tc main_v0)
    = adaptedT (m ((c : Thread nD τ).loc main_arg1)) (m ((c : Thread nD τ).loc main_arg3))
        (m ((c : Thread nD τ).loc main_arg4)) (m ((c : Thread nD τ).loc main_arg5)) (m ((c : Thread nD τ).loc main_arg6)) :=
  (W1_arr m ρ c 5).trans (Region0.final (V0 m ρ) c)

/-- At the second region's entry the activations are the first argument flattened to 8192 rows. -/
theorem entry1_rows (c : Dev nD) : W2 m ρ c (Proc.devRef .tc main_v1)
    = shapeCast S8192x2048 (m ((c : Thread nD τ).loc main_arg0)) shapeCasts_S4x2048x2048_S8192x2048 := by
  have h : W2 m ρ c (Proc.devRef .tc main_v1)
      = shapeCast S8192x2048 (W1 m ρ c (Proc.devRef .tc main_arg0)) shapeCasts_S4x2048x2048_S8192x2048 := by
    show StableHlo.after hostOps1 (W1 m ρ c) (Proc.devRef .tc main_v1) = _
    after_results
    rfl
  rw [h, W1_of_ne m ρ c main_arg0 (by decide)]

/-- At the second region's entry the bias row is the third argument recast as one row. -/
theorem entry1_bias (c : Dev nD) : W2 m ρ c (Proc.devRef .tc main_v2)
    = shapeCast S1x2048 (m ((c : Thread nD τ).loc main_arg2)) shapeCasts_S2048_S1x2048 := by
  have h : W2 m ρ c (Proc.devRef .tc main_v2)
      = shapeCast S1x2048 (W1 m ρ c (Proc.devRef .tc main_arg2)) shapeCasts_S2048_S1x2048 := by
    show StableHlo.after hostOps1 (W1 m ρ c) (Proc.devRef .tc main_v2) = _
    after_results
    rfl
  rw [h, W1_of_ne m ρ c main_arg2 (by decide)]

/-- The host reshapes between the regions do not write the first region's output array. -/
theorem entry1_weight (c : Dev nD) : W2 m ρ c (Proc.devRef .tc main_v0) = W1 m ρ c (Proc.devRef .tc main_v0) := by
  show StableHlo.after hostOps1 (W1 m ρ c) (Proc.devRef .tc main_v0) = _
  after_results

/-- The second region's output array at its exit. -/
theorem exit1_rows (c : Dev nD) : W3 m ρ c (Proc.devRef .tc main_v3)
    = affineRows (W2 m ρ c (Proc.devRef .tc main_v1)) (W2 m ρ c (Proc.devRef .tc main_v0))
        (W2 m ρ c (Proc.devRef .tc main_v2)) :=
  (W3_arr m ρ c 3).trans (Region1.final (V2 m ρ) c)

/-- The result buffer at the last boundary is the reshape of the second region's output array. -/
theorem last_result (c : Dev nD) : W4 m ρ c (Proc.devRef .tc main_v4)
    = shapeCast S4x2048x2048 (W3 m ρ c (Proc.devRef .tc main_v3)) shapeCasts_S8192x2048_S4x2048x2048 := by
  show StableHlo.after hostOps2 (W3 m ρ c) (Proc.devRef .tc main_v4) = _
  after_results
  rfl

/-- The result buffer at the last boundary is the folded form of the layer, of the argument arrays at launch. -/
theorem result_eq (c : Dev nD) : W4 m ρ c (Proc.devRef .tc main_v4)
    = foldedArr (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  rw [last_result m ρ c, exit1_rows m ρ c, entry1_rows m ρ c, entry1_bias m ρ c, entry1_weight m ρ c, exit0_weight m ρ c]
  exact reshape_affineRows_eq_foldedArr _ _ _ _ _ _ _ _ _ _

end Cert.KernelIdeal.Boundaries

end
-- ==== Proof.RefValue.lean ====
/-
  The reference program computes the split form.

  Its result is the sum of two stages: the base layer `∑ₖ x[b,s,k] · W[o,k]` with the bias broadcast over batch and
  position added, and the contraction of `x` against the update scaled by the constant one,
  `∑ₖ x[b,s,k] · (1 · δ[o,k])`, where `δ = ((U σ) R) Vt` is three successive matrix products. Read at an index
  (batch, position, output), each stage is the corresponding sum of the split form.
-/
import proofs.«175021_j76733885710753_2_alg».proof.Proof.Gen.ReferenceIdeal.Read
import proofs.«175021_j76733885710753_2_alg».proof.Proof.Spec
import proofs.«175021_j76733885710753_2_alg».proof.Proof.LibExtendedReals

noncomputable section

namespace Cert.ReferenceIdeal.RefValue

open Cert.ReferenceIdeal Cert.ReferenceIdeal.Read Idealize.ShloMosaic Idealize.ShloMosaic.ValueIdx Cert.Lora

/-- The reference's last stage, as a function of the seven argument arrays, is the split form of the layer. -/
theorem reference_is_split (x0 : (⟨S4x2048x2048, .f32⟩ : BufTy).Contents (Elt Ideal)) (x1 : (⟨S2048x2048, .f32⟩ : BufTy).Contents (Elt Ideal))
    (x2 : (⟨S2048, .f32⟩ : BufTy).Contents (Elt Ideal)) (x3 : (⟨S2048x64, .f32⟩ : BufTy).Contents (Elt Ideal))
    (x4 x5 : (⟨S64x64, .f32⟩ : BufTy).Contents (Elt Ideal)) (x6 : (⟨S64x2048, .f32⟩ : BufTy).Contents (Elt Ideal)) :
    val_main_v10 (F := Ideal) x0 x1 x2 x3 x4 x5 x6 = splitArr x0 x1 x2 x3 x4 x5 x6 := by
  funext i
  obtain ⟨b, s, o, rfl⟩ : ∃ (b : Fin 4) (s o : Fin 2048), i = ix3 b s o := ⟨i 0, i 1, i 2, eq_ix3 i⟩
  rw [val_main_v10_apply, val_main_v3_apply, val_main_v0_apply, val_main_v2_apply, val_main_v1_apply, val_main_v9_apply]
  simp only [val_main_v8_apply, val_main_v7_apply, val_main_cst_apply, val_main_v6_apply, val_main_v5_apply, val_main_v4_apply,
    Ideal.addf_def, Ideal.mulf_def, Ideal.ofBits_def, Cert.ExtendedReals.ofBits_one_f32]
  have e0l : ∀ k : Fin 2048, lidx_main_v0 (ix3 b s o) k = ix3 b s k := fun k => funext fun a => by
    match a with | ⟨0, _⟩ => rfl | ⟨1, _⟩ => rfl | ⟨2, _⟩ => rfl
  have e0r : ∀ k : Fin 2048, ridx_main_v0 (ix3 b s o) k = ix2 o k := fun k => funext fun a => by
    match a with | ⟨0, _⟩ => rfl | ⟨1, _⟩ => rfl
  have e12 : idx_main_v1 (idx_main_v2 (ix3 b s o)) = ix1 o := funext fun a => by
    match a with | ⟨0, _⟩ => rfl
  have e9l : ∀ k : Fin 2048, lidx_main_v9 (ix3 b s o) k = ix3 b s k := fun k => funext fun a => by
    match a with | ⟨0, _⟩ => rfl | ⟨1, _⟩ => rfl | ⟨2, _⟩ => rfl
  have e9r : ∀ k : Fin 2048, ridx_main_v9 (ix3 b s o) k = ix2 o k := fun k => funext fun a => by
    match a with | ⟨0, _⟩ => rfl | ⟨1, _⟩ => rfl
  have e6l : ∀ (p q : Fin 2048) (k : Fin 64), lidx_main_v6 (ix2 p q) k = ix2 p k := fun p q k => funext fun a => by
    match a with | ⟨0, _⟩ => rfl | ⟨1, _⟩ => rfl
  have e6r : ∀ (p q : Fin 2048) (k : Fin 64), ridx_main_v6 (ix2 p q) k = ix2 k q := fun p q k => funext fun a => by
    match a with | ⟨0, _⟩ => rfl | ⟨1, _⟩ => rfl
  have e5l : ∀ (p : Fin 2048) (q k : Fin 64), lidx_main_v5 (ix2 p q) k = ix2 p k := fun p q k => funext fun a => by
    match a with | ⟨0, _⟩ => rfl | ⟨1, _⟩ => rfl
  have e5r : ∀ (p : Fin 2048) (q k : Fin 64), ridx_main_v5 (ix2 p q) k = ix2 k q := fun p q k => funext fun a => by
    match a with | ⟨0, _⟩ => rfl | ⟨1, _⟩ => rfl
  have e4l : ∀ (p : Fin 2048) (q k : Fin 64), lidx_main_v4 (ix2 p q) k = ix2 p k := fun p q k => funext fun a => by
    match a with | ⟨0, _⟩ => rfl | ⟨1, _⟩ => rfl
  have e4r : ∀ (p : Fin 2048) (q k : Fin 64), ridx_main_v4 (ix2 p q) k = ix2 k q := fun p q k => funext fun a => by
    match a with | ⟨0, _⟩ => rfl | ⟨1, _⟩ => rfl
  simp only [e0l, e0r, e12, e9l, e9r, e6l, e6r, e5l, e5r, e4l, e4r]
  rfl

end Cert.ReferenceIdeal.RefValue

end
-- ==== Proof.Finite.lean ====
/-
  Under the precondition every entry of every input is a real number.

  The precondition is the conjunction, over the seven inputs, of "every entry has absolute value below +∞". On the
  extended reals the absolute value is `max x (-x)`, and it is below +∞ exactly when `x` is neither infinity. So
  each input array holds real numbers.
-/
import proofs.«175021_j76733885710753_2_alg».proof.Pre_finite_inputs
import proofs.«175021_j76733885710753_2_alg».proof.Proof.Gen.Pre_finite_inputs
import proofs.«175021_j76733885710753_2_alg».proof.Proof.LibRealSums
import Idealize.ShloMosaic.PureOps.Ideal
import Idealize.ShloMosaic.Lib.ReduceAll
import Idealize.ShloMosaic.Lib.Affine
import Idealize.ShloMosaic.Lib.ValueIdx

noncomputable section

namespace Cert.Pre_finite_inputs.Real

open Cert.Pre_finite_inputs Cert.Pre_finite_inputs.Gen Idealize.ShloMosaic Idealize.ShloMosaic.ValueIdx
open Cert.KernelIdeal.EdgeSum

instance : Subsingleton S_.Idx := ⟨fun a b => funext fun d => d.elim0⟩

/-- The single-precision word of +∞ denotes the top of the extended reals. -/
theorem ofBits_inf : Ideal.ofBits .f32 0x7F800000#32 = ⊤ := by
  simp [Ideal.ofBits, Ideal.ieee]

/-- An extended real whose absolute value compares below +∞ is a real number. -/
theorem isReal_of_cmp {x : EReal} (h : Ideal.cmp .olt (max x (-x)) (Ideal.ofBits .f32 0x7F800000#32) = 1#1) : IsReal x := by
  rw [ofBits_inf] at h
  unfold Ideal.cmp at h
  by_cases hlt : max x (-x) < ⊤
  · exact isReal_of_abs_lt_top hlt
  · simp [hlt] at h

/-- If "all entries have absolute value below +∞" holds of an array, each entry is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) (i : s.Idx) : IsReal (a i) := by
  have hi := Host.reduce_andi_all _ _ hr hu ix0 e i
  exact isReal_of_cmp hi

/-- The precondition's seven conjuncts, one per input. -/
theorem all_real (a0 : FVec Ideal S4x2048x2048 .f32) (a1 : FVec Ideal S2048x2048 .f32) (a2 : FVec Ideal S2048 .f32)
    (a3 : FVec Ideal S2048x64 .f32) (a4 a5 : FVec Ideal S64x64 .f32) (a6 : FVec Ideal S64x2048 .f32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  have h0 := congrFun h ix0
  unfold fn fn_part1 at h0
  dsimp only at h0
  have split : ∀ (a b : IVec S_ 1), andi a b ix0 = 1#1 → a ix0 = 1#1 ∧ b ix0 = 1#1 :=
    fun a b e => IntOp.andi_eq_one.mp e
  obtain ⟨k5, e6⟩ := split _ _ h0
  obtain ⟨k4, e5⟩ := split _ _ k5
  obtain ⟨k3, e4⟩ := split _ _ k4
  obtain ⟨k2, e3⟩ := split _ _ k3
  obtain ⟨k1, e2⟩ := split _ _ k2
  obtain ⟨e0, e1⟩ := split _ _ k1
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

end Cert.Pre_finite_inputs.Real

end
-- ==== Proof.lean ====
/-
  A low-rank-adapted linear layer, computed two ways, agrees over the extended reals on finite inputs.

  The kernel folds the rank-64 update `δ = ((U σ) R) Vt` into the weight once (a first pipelined region writes
  `W (o, i) + δ (o, i) · 1`, transposed, in four column blocks), then contracts the activations, flattened to 8192
  rows, against the adapted weight and adds the bias (a second region, sixteen row blocks), and reshapes back:
  `∑ᵢ x (b, s, i) · (W (o, i) + δ (o, i) · 1) + bias o`. The reference contracts the weight and the update
  separately: `(∑ᵢ x (b, s, i) · W (o, i) + bias o) + ∑ᵢ x (b, s, i) · (1 · δ (o, i))`. Both build `δ` by the same
  three products in the same order. The two results are equal by distributivity of multiplication over addition
  and by splitting a finite sum of sums; distributivity fails on the extended reals at infinities, and it is here
  that the precondition — every input entry finite, hence a real number — is used.

  The frames of the two kernel programs are the generated ones; the reference's frame is its generated run with the
  result dropped; the idealization rewrote no operation, so there is nothing to preserve.
-/
import proofs.«175021_j76733885710753_2_alg».proof.Defs
import proofs.«175021_j76733885710753_2_alg».proof.Proof.Gen.Kernel
import proofs.«175021_j76733885710753_2_alg».proof.Proof.Gen.Kernel.Skeleton
import proofs.«175021_j76733885710753_2_alg».proof.Proof.Gen.Kernel.Launch
import proofs.«175021_j76733885710753_2_alg».proof.Proof.Gen.Kernel.Points
import proofs.«175021_j76733885710753_2_alg».proof.Proof.Gen.Kernel.Frame
import proofs.«175021_j76733885710753_2_alg».proof.Proof.Gen.KernelIdeal
import proofs.«175021_j76733885710753_2_alg».proof.Proof.Gen.KernelIdeal.Skeleton
import proofs.«175021_j76733885710753_2_alg».proof.Proof.Gen.KernelIdeal.Launch
import proofs.«175021_j76733885710753_2_alg».proof.Proof.Gen.KernelIdeal.Points
import proofs.«175021_j76733885710753_2_alg».proof.Proof.Gen.KernelIdeal.Frame
import proofs.«175021_j76733885710753_2_alg».proof.Proof.Gen.ReferenceIdeal
import proofs.«175021_j76733885710753_2_alg».proof.Proof.Gen.ReferenceIdeal.Run
import proofs.«175021_j76733885710753_2_alg».proof.Proof.Gen.ReferenceIdeal.Read
import proofs.«175021_j76733885710753_2_alg».proof.Proof.Gen.Pre_finite_inputs
import proofs.«175021_j76733885710753_2_alg».proof.Proof.KernelRun
import proofs.«175021_j76733885710753_2_alg».proof.Proof.Boundaries
import proofs.«175021_j76733885710753_2_alg».proof.Proof.RefValue
import proofs.«175021_j76733885710753_2_alg».proof.Proof.Finite
import proofs.«175021_j76733885710753_2_alg».proof.Proof.Spec
import Idealize.ShloMosaic.Adequacy
import Idealize.ShloMosaic.Init

noncomputable section

namespace Cert.Proof

open Idealize.ShloMosaic Idealize.ShloMosaic.TcCoe Idealize.SL.Sem

/-- The word-level kernel runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments, the kernel ends at the folded form and the reference at the split
    form of the same layer, and the two forms are one array. -/
theorem algebraic : Cert.algebraic_KernelIdeal_ReferenceIdeal := by
  intro m ρ m' ρ' hpre hagree
  refine ⟨fun c => Cert.Lora.foldedArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundaries.result_eq m ρ c), (h c).2⟩)
      (Cert.KernelIdeal.ValueRun.run_named m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6⟩ := hagree c
    obtain ⟨r0, r1, r2, r3, r4, r5, r6⟩ := Cert.Pre_finite_inputs.Real.all_real _ _ _ _ _ _ _ (hpre c)
    rw [(h c).1, Cert.ReferenceIdeal.Read.val_main_v10_eq, Cert.ReferenceIdeal.RefValue.reference_is_split,
      a0, a1, a2, a3, a4, a5, a6]
    exact (Cert.Lora.foldedArr_eq_splitArr r0 r1 r2 r3 r4 r5 r6).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
